-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1024x1024 : Shape := ⟨2, ![1024, 1024]⟩
abbrev S1024 : Shape := ⟨1, ![1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8192x4096 .f32) (main_arg1 : FVec F S1024x1024 .f32) (main_arg2 : FVec F S1024x1024 .f32) (main_arg3 : FVec F S1024x1024 .f32) (main_arg4 : FVec F S1024x1024 .f32) (main_arg5 : FVec F S1024 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8192x4096 : Shape := ⟨2, ![8192, 4096]⟩
abbrev S1024x1024 : Shape := ⟨2, ![1024, 1024]⟩
abbrev S1024 : Shape := ⟨1, ![1024]⟩
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩
abbrev S1024x2048 : Shape := ⟨2, ![1024, 2048]⟩
abbrev S2048x1024 : Shape := ⟨2, ![2048, 1024]⟩
abbrev S1x1024 : Shape := ⟨2, ![1, 1024]⟩

abbrev nBuf : Space → Nat
  | .hbm => 26
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x4096, .f32⟩
  | .hbm, ⟨11, _⟩ => ⟨S1024x1024, .f32⟩
  | .hbm, ⟨12, _⟩ => ⟨S1024x1024, .f32⟩
  | .hbm, ⟨13, _⟩ => ⟨S1024x4096, .f32⟩
  | .hbm, ⟨14, _⟩ => ⟨S1024x1024, .f32⟩
  | .hbm, ⟨15, _⟩ => ⟨S1024x1024, .f32⟩
  | .hbm, ⟨16, _⟩ => ⟨S1024x4096, .f32⟩
  | .hbm, ⟨17, _⟩ => ⟨S1024x1024, .f32⟩
  | .hbm, ⟨18, _⟩ => ⟨S1024x1024, .f32⟩
  | .hbm, ⟨19, _⟩ => ⟨S1024x4096, .f32⟩
  | .hbm, ⟨20, _⟩ => ⟨S4096x4096, .f32⟩
  | .hbm, ⟨21, _⟩ => ⟨S4096, .f32⟩
  | .hbm, ⟨22, _⟩ => ⟨S1x4096, .f32⟩
  | .hbm, ⟨23, _⟩ => ⟨S8192x4096, .bf16⟩
  | .hbm, ⟨24, _⟩ => ⟨S4096x4096, .bf16⟩
  | .hbm, ⟨25, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S1024x1024_S1024x1024_1_0 : S1024x1024.Transposes [1, 0] S1024x1024
  concatenates_S1024x1024_S1024x1024_S1024x1024_S1024x1024_S1024x4096_d1 : Shape.Concatenates [S1024x1024, S1024x1024, S1024x1024, S1024x1024] S1024x4096 1
  concatenates_S1024x4096_S1024x4096_S1024x4096_S1024x4096_S4096x4096_d0 : Shape.Concatenates [S1024x4096, S1024x4096, S1024x4096, S1024x4096] S4096x4096 0
  concatenates_S1024_S1024_S1024_S1024_S4096_d0 : Shape.Concatenates [S1024, S1024, S1024, S1024] S4096 0
  shapeCasts_S4096_S1x4096 : S4096.ShapeCasts S1x4096
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v17) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S1024x1024 : Shape := ⟨2, ![1024, 1024]⟩
abbrev S1024 : Shape := ⟨1, ![1024]⟩
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x4096, .f32⟩
  | .hbm, ⟨11, _⟩ => ⟨S1024x1024, .f32⟩
  | .hbm, ⟨12, _⟩ => ⟨S1024x1024, .f32⟩
  | .hbm, ⟨13, _⟩ => ⟨S1024x4096, .f32⟩
  | .hbm, ⟨14, _⟩ => ⟨S1024x1024, .f32⟩
  | .hbm, ⟨15, _⟩ => ⟨S1024x1024, .f32⟩
  | .hbm, ⟨16, _⟩ => ⟨S1024x4096, .f32⟩
  | .hbm, ⟨17, _⟩ => ⟨S1024x1024, .f32⟩
  | .hbm, ⟨18, _⟩ => ⟨S1024x1024, .f32⟩
  | .hbm, ⟨19, _⟩ => ⟨S1024x4096, .f32⟩
  | .hbm, ⟨20, _⟩ => ⟨S4096x4096, .f32⟩
  | .hbm, ⟨21, _⟩ => ⟨S4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  transposes_S1024x1024_S1024x1024_1_0 : S1024x1024.Transposes [1, 0] S1024x1024
  concatenates_S1024x1024_S1024x1024_S1024x1024_S1024x1024_S1024x4096_d1 : Shape.Concatenates [S1024x1024, S1024x1024, S1024x1024, S1024x1024] S1024x4096 1
  concatenates_S1024x4096_S1024x4096_S1024x4096_S1024x4096_S4096x4096_d0 : Shape.Concatenates [S1024x4096, S1024x4096, S1024x4096, S1024x4096] S4096x4096 0
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KernelEntry.lean ====
/-
  The pallas_call of `Kernel` seen from outside its body, at any float instance `F`.
  The call is a matrix product accumulated over the LAST grid axis: the grid is 8 x 4 x 2, point (i, j, k) is handed
  block (i, k) of the left operand [8192, 4096] (1024 x 2048), block (k, j) of the right operand [4096, 4096]
  (2048 x 1024), block (0, j) of the bias row [1, 4096] (1 x 1024) and block (i, j) of the result (1024 x 1024), and a
  1024 x 1024 accumulator that lives across the two points k = 0, 1 of one (i, j). Points are numbered row-major, so
  k is the parity of the point's number. This module fixes what the region finds in every buffer when it is entered
  (the nineteen host operations before it applied to the launch memory), that none of them touches an argument
  array, the block of each array a point is handed, the two conditions of the body (k = 0: the accumulator is
  seeded with the bias; k = 1: the accumulator is stored to the result block) decided over the 64 points, and
  where the result window is idle (k = 0: nothing is stored into it and nothing is written back).
-/
import proofs.«116595_j29205777613621_2_alg».proof.Proof.Gen.Kernel.Launch
import proofs.«116595_j29205777613621_2_alg».proof.Proof.Gen.Kernel.Skeleton
import proofs.«116595_j29205777613621_2_alg».proof.Proof.Gen.Kernel.Points
import Idealize.ShloMosaic.Lib.Pipeline.FrameBody
import Idealize.ShloMosaic.Lib.Ring
import Idealize.ShloMosaic.Lib.Tactic

-- deciding membership in a rectangle of 1024 x 1024 coordinates recurses once per coordinate of an axis
set_option maxRecDepth 16384

noncomputable section

namespace Cert.Kernel.Accum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffer contents when the region is entered: the launch memory after the host operations before the
    region (four transposes, eight negations, six concatenations, one reshape, two changes of format). -/
abbrev V (c : Dev nD) (b : Ref sig .tc) : Buf (Elt F) ((c : Thread nD τ).loc b) :=
  StableHlo.after hostOps0 (fun b => m (c, b)) b

/-- Every one of them writes a buffer the program already has: none allocates. -/
theorem hostOps0_fresh : (hostOps0 : List (HloOp τ sig (Elt F))).Forall fun op => op.fresh = ∅ := by
  simp only [List.Forall]; repeat' constructor

/-- @main is those operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the nineteen operations before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- None of the nineteen operations before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- None of the nineteen operations before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- None of the nineteen operations before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- None of the nineteen operations before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- None of the nineteen operations before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every point, whether the pipeline
    fetched it there or not (where it did not, the block index has not moved since the point before). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block of the array at every point, whether the pipeline
    fetched it there or not (where it did not, the block index has not moved since the point before). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block of the array at every point, whether the pipeline
    fetched it there or not (where it did not, the block index has not moved since the point before). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the library's post -/

/-- No argument array is an array of a window (the windows' arrays are the three converted operands and the
    result), so each is among the buffers that bypass the region and ends as the region found it: as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's two conditions, over the grid -/

/-- "This is the first point of the contraction axis" (k = 0), as the body computes it from the coordinates. -/
abbrev isFirstK (i : grid0.Coords) : Prop := (Scalar.cmpi .ne (Scalar.extui (Scalar.cmpi .eq (BitVec.ofNat 32 (i 2).val) 0#32)) 0#32) = 1#1
/-- It holds at the even points. -/
theorem isFirstK_iff : ∀ t : Fin cfg0.N, isFirstK (grid0.coords t) ↔ t.val % 2 = 0 :=
  (by decide +kernel : ∀ t : Fin grid0.N, isFirstK (grid0.coords t) ↔ t.val % 2 = 0)

/-- "This is the last point of the contraction axis" (k = 1), as the body computes it. -/
abbrev isLastK (i : grid0.Coords) : Prop := k0_cond2 i = 1#1
/-- It holds at the odd points. -/
theorem isLastK_iff : ∀ t : Fin cfg0.N, isLastK (grid0.coords t) ↔ t.val % 2 = 1 :=
  (by decide +kernel : ∀ t : Fin grid0.N, isLastK (grid0.coords t) ↔ t.val % 2 = 1)

/-! ## Where the windows are idle -/

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At k = 0 the body stores nothing into the result window: the window is idle there, -/
theorem idleAt0_3_first : ∀ t : Fin cfg0.N, isFirstK (grid0.coords t) → ¬isLastK (grid0.coords t) → cfg0.idle 3 (grid0.coords t) = true := by decide +kernel
/-- and the pipeline does not write its block back there (the block index does not move from k = 0 to k = 1). -/
theorem noFlush0_3_first : ∀ t : Fin cfg0.N, isFirstK (grid0.coords t) → ¬isLastK (grid0.coords t) → (cfg0.win 3).flush t = false := by decide +kernel
/-- At k = 1 the body stores the accumulator into it: live. -/
theorem liveAt0_3_last : ∀ t : Fin cfg0.N, ¬isFirstK (grid0.coords t) → isLastK (grid0.coords t) → cfg0.idle 3 (grid0.coords t) = false := by decide +kernel

/-! ## The memrefs the body is called with -/

/-- One staging buffer of the result window, through which its contents are stated (which of the two does not matter). -/
abbrev VO0_3 : View sig .tc .vmem S1024x1024 .f32 := (Memref.whole cc0_stg3_0 : Memref sig .tc .vmem S1024x1024 .f32).view
/-- Each window's current staging memref at point `t`, and that it is a whole buffer. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows, -/
abbrev scM0_0 : Memref sig .tc .vmem S1024x1024 .f32 := Memref.whole cc0_scratch0
/-- and the view through which what it holds between points is stated. -/
abbrev VS0_0 : View sig .tc .vmem S1024x1024 .f32 := scM0_0.view

/-- What the region hands the body beside the windows: the accumulator owned at some contents, and the generator
    register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Accum

end
-- ==== Proof.KernelRunFirst.lean ====
/-
  The body of `Kernel`'s kernel at a point with k = 0, run symbolically on any whole staging memrefs: it reads
  the bias block, overwrites the whole accumulator with the bias broadcast down the 1024 rows, reads the two operand
  blocks and the accumulator, and overwrites the accumulator with itself plus the product of the blocks; the second
  condition fails, so nothing touches the result window's buffer. The stores the run meets are collected as pieces
  (last first): none for the result window, two whole-buffer pieces for the accumulator.
-/
import proofs.«116595_j29205777613621_2_alg».proof.Proof.KernelEntry

-- deciding membership in a rectangle of 1024 x 1024 coordinates recurses once per coordinate of an axis
set_option maxRecDepth 16384

noncomputable section

namespace Cert.Kernel.Accum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- At k = 0: from the three input buffers at contents `x0`, `x1`, `x2`, the result buffer at any `xi3` and the
    accumulator at anything, the body ends with the inputs and the result buffer as they were and the accumulator
    with the pieces `LS0` written. -/
noncomputable def runFirst (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : isFirstK i) (hc1 : ¬isLastK i)
    (x0 : Vec F S1024x2048 .bf16) (x1 : Vec F S2048x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_kernel i arg3 harg3 arg4 harg4 arg5 harg5 arg6 harg6 arg7 harg7) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Accum

end
-- ==== Proof.KernelRunLast.lean ====
/-
  The body of `Kernel`'s kernel at a point with k = 1, run symbolically on any whole staging memrefs: the first
  condition fails (the accumulator keeps what the point before left), the body reads the two operand blocks and the
  accumulator, overwrites the accumulator with itself plus the product of the blocks, and then — the second condition
  holds — reads the accumulator back and stores it over the whole result buffer. One whole-buffer piece for the
  result window, one for the accumulator.
-/
import proofs.«116595_j29205777613621_2_alg».proof.Proof.KernelRunFirst

-- deciding membership in a rectangle of 1024 x 1024 coordinates recurses once per coordinate of an axis
set_option maxRecDepth 16384

noncomputable section

namespace Cert.Kernel.Accum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- At k = 1: from the three input buffers at contents `x0`, `x1`, `x2`, the result buffer at anything and the
    accumulator at `xs0` (what the point before left), the body ends with the inputs as they were, the result buffer
    with the pieces `L3` written and the accumulator with the pieces `LS0` written. -/
noncomputable def runLast (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : isLastK i)
    (x0 : Vec F S1024x2048 .bf16) (x1 : Vec F S2048x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_kernel i arg3 harg3 arg4 harg4 arg5 harg5 arg6 harg6 arg7 harg7) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Accum

end
-- ==== Proof.KernelFrame.lean ====
/-
  The frame of `Kernel`: every weakly fair execution of @main terminates without a fault and leaves the six argument
  arrays as launched, at any float instance `F`; and, on the way, what the result array holds at the end.
  One (i, j) of the grid is two consecutive points, 2n (k = 0) and 2n + 1 (k = 1). What the accumulator holds after a
  point is defined by recursion on the point's number: after an even point, what the body's two stores leave from the
  point's three blocks alone (the first store covers the accumulator, so nothing of its earlier contents survives);
  after an odd point, what the body's one store leaves from the point's blocks and what the point before left. The
  result window's buffer is untouched at even points — it is idle there and not written back — and after an odd point
  holds the store of the accumulator. The region's invariant carries the accumulator at exactly these contents
  between points, starting from (and ending in) "the accumulator holds anything".
-/
import proofs.«116595_j29205777613621_2_alg».proof.Proof.KernelRunLast

-- deciding membership in a rectangle of 1024 x 1024 coordinates recurses once per coordinate of an axis
set_option maxRecDepth 16384

noncomputable section

namespace Cert.Kernel.Accum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The parity of a point decides the body's two conditions -/

theorem first_of_even (t : Fin cfg0.N) (h0 : t.val % 2 = 0) : isFirstK (grid0.coords t) := (isFirstK_iff t).mpr h0
theorem notLast_of_even (t : Fin cfg0.N) (h0 : t.val % 2 = 0) : ¬isLastK (grid0.coords t) := fun h => by
  have h1 := (isLastK_iff t).mp h; omega
theorem notFirst_of_odd (t : Fin cfg0.N) (h0 : ¬t.val % 2 = 0) : ¬isFirstK (grid0.coords t) := fun h => h0 ((isFirstK_iff t).mp h)
theorem last_of_odd (t : Fin cfg0.N) (h0 : ¬t.val % 2 = 0) : isLastK (grid0.coords t) := (isLastK_iff t).mpr (by omega)

/-! ## The body's run at a point, on what the pipeline hands it there -/

/-- The run at an even point `t`, on the point's staging memrefs and the three blocks the inputs hold there. -/
abbrev firstAt (c : Dev nD) (t : Fin cfg0.N) (h0 : t.val % 2 = 0) :=
  runFirst (F := F) c (grid0.coords t) (ms0_0 t) (hs0_0 t) (ms0_1 t) (hs0_1 t) (ms0_2 t) (hs0_2 t) (ms0_3 t) (hs0_3 t) scM0_0 (Memref.isWhole_whole _) (first_of_even t h0) (notLast_of_even t h0) (iblk m c 0 t) (iblk m c 1 t) (iblk m c 2 t)

/-- The run at an odd point `t`, the accumulator holding `xs`. -/
abbrev lastAt (c : Dev nD) (t : Fin cfg0.N) (h0 : ¬t.val % 2 = 0) (xs : Vec F S1024x1024 .f32) :=
  runLast (F := F) c (grid0.coords t) (ms0_0 t) (hs0_0 t) (ms0_1 t) (hs0_1 t) (ms0_2 t) (hs0_2 t) (ms0_3 t) (hs0_3 t) scM0_0 (Memref.isWhole_whole _) (notFirst_of_odd t h0) (last_of_odd t h0) (iblk m c 0 t) (iblk m c 1 t) (iblk m c 2 t) xs

/-! ## What a point leaves -/

/-- At an even point nothing is stored into the result window: no pieces, a placeholder nothing consults (the
    window is neither written back there nor read at the next point). -/
def outFirst (c : Dev nD) (t : Fin cfg0.N) (h0 : t.val % 2 = 0) : Vec F S1024x1024 .f32 :=
  VO0_3.read (Elt F) (VO0_3.writes (Elt F) VO0_3.junk (firstAt m c t h0).1)

/-- The two stores of an even point each cover the whole accumulator. -/
theorem accCoverFirst (c : Dev nD) (t : Fin cfg0.N) (h0 : t.val % 2 = 0) (y : S1024x1024.Idx) :
    ∃ pc ∈ (firstAt m c t h0).2.1, y ∈ pc.1.set :=
  View.cover_of_tiledL (firstAt m c t h0).2.1 S1024x1024.size (by sl_kernel_rfl) y

/-- What an even point leaves in the accumulator: its stores read back. -/
def accFirst (c : Dev nD) (t : Fin cfg0.N) (h0 : t.val % 2 = 0) : Vec F S1024x1024 .f32 :=
  VS0_0.read (Elt F) (VS0_0.writes (Elt F) VS0_0.junk (firstAt m c t h0).2.1)

/-- The store of an odd point into the result window covers its whole block. -/
theorem outCoverLast (c : Dev nD) (t : Fin cfg0.N) (h0 : ¬t.val % 2 = 0) (xs : Vec F S1024x1024 .f32) (y : S1024x1024.Idx) :
    ∃ pc ∈ (lastAt m c t h0 xs).1, y ∈ pc.1.set :=
  View.cover_of_tiledL (lastAt m c t h0 xs).1 S1024x1024.size (by sl_kernel_rfl) y

/-- What an odd point leaves in the result window's buffer. -/
def outLast (c : Dev nD) (t : Fin cfg0.N) (h0 : ¬t.val % 2 = 0) (xs : Vec F S1024x1024 .f32) : Vec F S1024x1024 .f32 :=
  VO0_3.read (Elt F) (VO0_3.writes (Elt F) VO0_3.junk (lastAt m c t h0 xs).1)

/-- The store of an odd point into the accumulator covers it. -/
theorem accCoverLast (c : Dev nD) (t : Fin cfg0.N) (h0 : ¬t.val % 2 = 0) (xs : Vec F S1024x1024 .f32) (y : S1024x1024.Idx) :
    ∃ pc ∈ (lastAt m c t h0 xs).2.1, y ∈ pc.1.set :=
  View.cover_of_tiledL (lastAt m c t h0 xs).2.1 S1024x1024.size (by sl_kernel_rfl) y

/-- What an odd point leaves in the accumulator. -/
def accLast (c : Dev nD) (t : Fin cfg0.N) (h0 : ¬t.val % 2 = 0) (xs : Vec F S1024x1024 .f32) : Vec F S1024x1024 .f32 :=
  VS0_0.read (Elt F) (VS0_0.writes (Elt F) VS0_0.junk (lastAt m c t h0 xs).2.1)

/-! ## Point by point -/

/-- THE ACCUMULATION. After the body at position `n`: (the result window's buffer, the accumulator). An even position
    starts afresh from its blocks; an odd one continues from the accumulator the position before left. -/
def leftAt (c : Dev nD) : (n : ℕ) → n < cfg0.N → Vec F S1024x1024 .f32 × Vec F S1024x1024 .f32
  | 0, hn => (outFirst m c ⟨0, hn⟩ (Nat.zero_mod _), accFirst m c ⟨0, hn⟩ (Nat.zero_mod _))
  | n + 1, hn =>
    if h0 : (n + 1) % 2 = 0 then
      (outFirst m c ⟨n + 1, hn⟩ h0, accFirst m c ⟨n + 1, hn⟩ h0)
    else
      (outLast m c ⟨n + 1, hn⟩ h0 (leftAt c n (Nat.lt_of_succ_lt hn)).2, accLast m c ⟨n + 1, hn⟩ h0 (leftAt c n (Nat.lt_of_succ_lt hn)).2)

theorem leftAt_even (c : Dev nD) (t : Fin cfg0.N) (h0 : t.val % 2 = 0) :
    leftAt m c t.val t.isLt = (outFirst m c t h0, accFirst m c t h0) := by
  obtain ⟨n, hn⟩ := t
  cases n with
  | zero => exact rfl
  | succ n => exact (dif_pos h0).trans rfl

theorem leftAt_odd (c : Dev nD) (t : Fin cfg0.N) (h0 : ¬t.val % 2 = 0) :
    leftAt m c t.val t.isLt = (outLast m c t h0 (leftAt m c (t.val - 1) (Nat.lt_of_le_of_lt (Nat.sub_le _ _) t.isLt)).2, accLast m c t h0 (leftAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point the accumulator holds anything; afterwards it
    holds what the position before left; the generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((leftAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((leftAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((leftAt m c (n - 1) (by omega)).2)) ∗ (∃ r, prngReg c r)) := by
  cases n with
  | zero => exact absurd rfl hz
  | succ n => rfl

/-! ## The pipeline's proof data -/

/-- The arrays as the region finds them; after the body at point `t` each input's buffer at its block and the
    result window's at `leftAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (leftAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (leftAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' memrefs hold their blocks. At an even point the run for k = 0 applies, with the
    accumulator at whatever the invariant holds it at (anything before the first point, the previous odd point's
    contents later: either way forgotten, since the first store covers it), and the result window's buffer is handed
    back untouched; at an odd point the run for k = 1 applies with the accumulator at what the point before left. Either
    way the invariant takes the accumulator back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 2 = 0
  · rw [Dat.leavesExact_idle (dats m 0 c) 3 t (idleAt0_3_first t (first_of_even t h0) (notLast_of_even t h0)) (noFlush0_3_first t (first_of_even t h0) (notLast_of_even t h0))]
    rw [leftAt_even m c t h0]
    unfold accFirst; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((firstAt m c t h0).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (accCoverFirst m c t h0)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((firstAt m c t h0).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (accCoverFirst m c t h0)
        iexact Hg
      isplitl [Ho]; · iexact Ho
      isplitl [H0]; · iexact H0
      isplitl [H1]; · iexact H1
      isplitl [H2]; · iexact H2
      iexists _; iexact H3
  · rw [show (dats m 0 c).leavesExact 3 t = owns (c : Thread nD τ) (ms0_3 t) fullShare ((dats m 0 c).after 3 t) from by
      unfold Dat.leavesExact; rw [liveAt0_3_last t (notFirst_of_odd t h0) (last_of_odd t h0)], after0_3]
    rw [leftAt_odd m c t h0]
    unfold outLast accLast; (try dsimp only)
    have hz : t.val ≠ 0 := fun e => h0 (by rw [e])
    rw [PhiS_castSucc m c t, PhiS_pos m c _ _ hz]
    iintro ⟨⟨HS0, Hg⟩, Ho, ⟨%d0, H0⟩, ⟨%d1, H1⟩, ⟨%d2, H2⟩, ⟨%d3, H3⟩⟩
    iapply ((lastAt m c t h0 _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hg]
    · isplitl [HS0]
      · unfold owns; iexists _; isplitr
        swap; · iexact HS0
        ipureintro; exact View.read_writes_of_cover _ _ _ _ _ (accCoverLast m c t h0 _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (outCoverLast m c t h0 _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back at "anything". -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

/-! ## The run and the frame -/

-- the launch theorem's implicit arguments are found by unifying its conclusion with this one, which takes unfolding
-- plain definitions in a metavariable's type
set_option backward.isDefEq.respectTransparency.types false in
/-- Every weakly fair execution of @main terminates, and every final state has each array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.Kernel.Accum

end
-- ==== Proof.KernelIdealEntry.lean ====
/-
  The pallas_call of `KernelIdeal` seen from outside its body, at any float instance `F`.
  The call is a matrix product accumulated over the LAST grid axis: the grid is 8 x 4 x 2, point (i, j, k) is handed
  block (i, k) of the left operand [8192, 4096] (1024 x 2048), block (k, j) of the right operand [4096, 4096]
  (2048 x 1024), block (0, j) of the bias row [1, 4096] (1 x 1024) and block (i, j) of the result (1024 x 1024), and a
  1024 x 1024 accumulator that lives across the two points k = 0, 1 of one (i, j). Points are numbered row-major, so
  k is the parity of the point's number. This module fixes what the region finds in every buffer when it is entered
  (the nineteen host operations before it applied to the launch memory), that none of them touches an argument
  array, the block of each array a point is handed, the two conditions of the body (k = 0: the accumulator is
  seeded with the bias; k = 1: the accumulator is stored to the result block) decided over the 64 points, and
  where the result window is idle (k = 0: nothing is stored into it and nothing is written back).
-/
import proofs.«116595_j29205777613621_2_alg».proof.Proof.Gen.KernelIdeal.Launch
import proofs.«116595_j29205777613621_2_alg».proof.Proof.Gen.KernelIdeal.Skeleton
import proofs.«116595_j29205777613621_2_alg».proof.Proof.Gen.KernelIdeal.Points
import Idealize.ShloMosaic.Lib.Pipeline.FrameBody
import Idealize.ShloMosaic.Lib.Ring
import Idealize.ShloMosaic.Lib.Tactic

-- deciding membership in a rectangle of 1024 x 1024 coordinates recurses once per coordinate of an axis
set_option maxRecDepth 16384

noncomputable section

namespace Cert.KernelIdeal.Accum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffer contents when the region is entered: the launch memory after the host operations before the
    region (four transposes, eight negations, six concatenations, one reshape, two changes of format). -/
abbrev V (c : Dev nD) (b : Ref sig .tc) : Buf (Elt F) ((c : Thread nD τ).loc b) :=
  StableHlo.after hostOps0 (fun b => m (c, b)) b

/-- Every one of them writes a buffer the program already has: none allocates. -/
theorem hostOps0_fresh : (hostOps0 : List (HloOp τ sig (Elt F))).Forall fun op => op.fresh = ∅ := by
  simp only [List.Forall]; repeat' constructor

/-- @main is those operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the nineteen operations before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- None of the nineteen operations before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- None of the nineteen operations before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- None of the nineteen operations before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- None of the nineteen operations before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- None of the nineteen operations before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every point, whether the pipeline
    fetched it there or not (where it did not, the block index has not moved since the point before). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block of the array at every point, whether the pipeline
    fetched it there or not (where it did not, the block index has not moved since the point before). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block of the array at every point, whether the pipeline
    fetched it there or not (where it did not, the block index has not moved since the point before). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the library's post -/

/-- No argument array is an array of a window (the windows' arrays are the three converted operands and the
    result), so each is among the buffers that bypass the region and ends as the region found it: as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's two conditions, over the grid -/

/-- "This is the first point of the contraction axis" (k = 0), as the body computes it from the coordinates. -/
abbrev isFirstK (i : grid0.Coords) : Prop := (Scalar.cmpi .ne (Scalar.extui (Scalar.cmpi .eq (BitVec.ofNat 32 (i 2).val) 0#32)) 0#32) = 1#1
/-- It holds at the even points. -/
theorem isFirstK_iff : ∀ t : Fin cfg0.N, isFirstK (grid0.coords t) ↔ t.val % 2 = 0 :=
  (by decide +kernel : ∀ t : Fin grid0.N, isFirstK (grid0.coords t) ↔ t.val % 2 = 0)

/-- "This is the last point of the contraction axis" (k = 1), as the body computes it. -/
abbrev isLastK (i : grid0.Coords) : Prop := k0_cond2 i = 1#1
/-- It holds at the odd points. -/
theorem isLastK_iff : ∀ t : Fin cfg0.N, isLastK (grid0.coords t) ↔ t.val % 2 = 1 :=
  (by decide +kernel : ∀ t : Fin grid0.N, isLastK (grid0.coords t) ↔ t.val % 2 = 1)

/-! ## Where the windows are idle -/

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At k = 0 the body stores nothing into the result window: the window is idle there, -/
theorem idleAt0_3_first : ∀ t : Fin cfg0.N, isFirstK (grid0.coords t) → ¬isLastK (grid0.coords t) → cfg0.idle 3 (grid0.coords t) = true := by decide +kernel
/-- and the pipeline does not write its block back there (the block index does not move from k = 0 to k = 1). -/
theorem noFlush0_3_first : ∀ t : Fin cfg0.N, isFirstK (grid0.coords t) → ¬isLastK (grid0.coords t) → (cfg0.win 3).flush t = false := by decide +kernel
/-- At k = 1 the body stores the accumulator into it: live. -/
theorem liveAt0_3_last : ∀ t : Fin cfg0.N, ¬isFirstK (grid0.coords t) → isLastK (grid0.coords t) → cfg0.idle 3 (grid0.coords t) = false := by decide +kernel

/-! ## The memrefs the body is called with -/

/-- One staging buffer of the result window, through which its contents are stated (which of the two does not matter). -/
abbrev VO0_3 : View sig .tc .vmem S1024x1024 .f32 := (Memref.whole cc0_stg3_0 : Memref sig .tc .vmem S1024x1024 .f32).view
/-- Each window's current staging memref at point `t`, and that it is a whole buffer. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows, -/
abbrev scM0_0 : Memref sig .tc .vmem S1024x1024 .f32 := Memref.whole cc0_scratch0
/-- and the view through which what it holds between points is stated. -/
abbrev VS0_0 : View sig .tc .vmem S1024x1024 .f32 := scM0_0.view

/-- What the region hands the body beside the windows: the accumulator owned at some contents, and the generator
    register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Accum

end
-- ==== Proof.KernelIdealRunFirst.lean ====
/-
  The body of `KernelIdeal`'s kernel at a point with k = 0, run symbolically on any whole staging memrefs: it reads
  the bias block, overwrites the whole accumulator with the bias broadcast down the 1024 rows, reads the two operand
  blocks and the accumulator, and overwrites the accumulator with itself plus the product of the blocks; the second
  condition fails, so nothing touches the result window's buffer. The stores the run meets are collected as pieces
  (last first): none for the result window, two whole-buffer pieces for the accumulator.
-/
import proofs.«116595_j29205777613621_2_alg».proof.Proof.KernelIdealEntry

-- deciding membership in a rectangle of 1024 x 1024 coordinates recurses once per coordinate of an axis
set_option maxRecDepth 16384

noncomputable section

namespace Cert.KernelIdeal.Accum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- At k = 0: from the three input buffers at contents `x0`, `x1`, `x2`, the result buffer at any `xi3` and the
    accumulator at anything, the body ends with the inputs and the result buffer as they were and the accumulator
    with the pieces `LS0` written. -/
noncomputable def runFirst (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : isFirstK i) (hc1 : ¬isLastK i)
    (x0 : Vec F S1024x2048 .bf16) (x1 : Vec F S2048x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_kernel i arg3 harg3 arg4 harg4 arg5 harg5 arg6 harg6 arg7 harg7) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Accum

end
-- ==== Proof.KernelIdealRunLast.lean ====
/-
  The body of `KernelIdeal`'s kernel at a point with k = 1, run symbolically on any whole staging memrefs: the first
  condition fails (the accumulator keeps what the point before left), the body reads the two operand blocks and the
  accumulator, overwrites the accumulator with itself plus the product of the blocks, and then — the second condition
  holds — reads the accumulator back and stores it over the whole result buffer. One whole-buffer piece for the
  result window, one for the accumulator.
-/
import proofs.«116595_j29205777613621_2_alg».proof.Proof.KernelIdealRunFirst

-- deciding membership in a rectangle of 1024 x 1024 coordinates recurses once per coordinate of an axis
set_option maxRecDepth 16384

noncomputable section

namespace Cert.KernelIdeal.Accum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- At k = 1: from the three input buffers at contents `x0`, `x1`, `x2`, the result buffer at anything and the
    accumulator at `xs0` (what the point before left), the body ends with the inputs as they were, the result buffer
    with the pieces `L3` written and the accumulator with the pieces `LS0` written. -/
noncomputable def runLast (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : isLastK i)
    (x0 : Vec F S1024x2048 .bf16) (x1 : Vec F S2048x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_kernel i arg3 harg3 arg4 harg4 arg5 harg5 arg6 harg6 arg7 harg7) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Accum

end
-- ==== Proof.KernelIdealFrame.lean ====
/-
  The frame of `KernelIdeal`: every weakly fair execution of @main terminates without a fault and leaves the six argument
  arrays as launched, at any float instance `F`; and, on the way, what the result array holds at the end.
  One (i, j) of the grid is two consecutive points, 2n (k = 0) and 2n + 1 (k = 1). What the accumulator holds after a
  point is defined by recursion on the point's number: after an even point, what the body's two stores leave from the
  point's three blocks alone (the first store covers the accumulator, so nothing of its earlier contents survives);
  after an odd point, what the body's one store leaves from the point's blocks and what the point before left. The
  result window's buffer is untouched at even points — it is idle there and not written back — and after an odd point
  holds the store of the accumulator. The region's invariant carries the accumulator at exactly these contents
  between points, starting from (and ending in) "the accumulator holds anything".
-/
import proofs.«116595_j29205777613621_2_alg».proof.Proof.KernelIdealRunLast

-- deciding membership in a rectangle of 1024 x 1024 coordinates recurses once per coordinate of an axis
set_option maxRecDepth 16384

noncomputable section

namespace Cert.KernelIdeal.Accum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The parity of a point decides the body's two conditions -/

theorem first_of_even (t : Fin cfg0.N) (h0 : t.val % 2 = 0) : isFirstK (grid0.coords t) := (isFirstK_iff t).mpr h0
theorem notLast_of_even (t : Fin cfg0.N) (h0 : t.val % 2 = 0) : ¬isLastK (grid0.coords t) := fun h => by
  have h1 := (isLastK_iff t).mp h; omega
theorem notFirst_of_odd (t : Fin cfg0.N) (h0 : ¬t.val % 2 = 0) : ¬isFirstK (grid0.coords t) := fun h => h0 ((isFirstK_iff t).mp h)
theorem last_of_odd (t : Fin cfg0.N) (h0 : ¬t.val % 2 = 0) : isLastK (grid0.coords t) := (isLastK_iff t).mpr (by omega)

/-! ## The body's run at a point, on what the pipeline hands it there -/

/-- The run at an even point `t`, on the point's staging memrefs and the three blocks the inputs hold there. -/
abbrev firstAt (c : Dev nD) (t : Fin cfg0.N) (h0 : t.val % 2 = 0) :=
  runFirst (F := F) c (grid0.coords t) (ms0_0 t) (hs0_0 t) (ms0_1 t) (hs0_1 t) (ms0_2 t) (hs0_2 t) (ms0_3 t) (hs0_3 t) scM0_0 (Memref.isWhole_whole _) (first_of_even t h0) (notLast_of_even t h0) (iblk m c 0 t) (iblk m c 1 t) (iblk m c 2 t)

/-- The run at an odd point `t`, the accumulator holding `xs`. -/
abbrev lastAt (c : Dev nD) (t : Fin cfg0.N) (h0 : ¬t.val % 2 = 0) (xs : Vec F S1024x1024 .f32) :=
  runLast (F := F) c (grid0.coords t) (ms0_0 t) (hs0_0 t) (ms0_1 t) (hs0_1 t) (ms0_2 t) (hs0_2 t) (ms0_3 t) (hs0_3 t) scM0_0 (Memref.isWhole_whole _) (notFirst_of_odd t h0) (last_of_odd t h0) (iblk m c 0 t) (iblk m c 1 t) (iblk m c 2 t) xs

/-! ## What a point leaves -/

/-- At an even point nothing is stored into the result window: no pieces, a placeholder nothing consults (the
    window is neither written back there nor read at the next point). -/
def outFirst (c : Dev nD) (t : Fin cfg0.N) (h0 : t.val % 2 = 0) : Vec F S1024x1024 .f32 :=
  VO0_3.read (Elt F) (VO0_3.writes (Elt F) VO0_3.junk (firstAt m c t h0).1)

/-- The two stores of an even point each cover the whole accumulator. -/
theorem accCoverFirst (c : Dev nD) (t : Fin cfg0.N) (h0 : t.val % 2 = 0) (y : S1024x1024.Idx) :
    ∃ pc ∈ (firstAt m c t h0).2.1, y ∈ pc.1.set :=
  View.cover_of_tiledL (firstAt m c t h0).2.1 S1024x1024.size (by sl_kernel_rfl) y

/-- What an even point leaves in the accumulator: its stores read back. -/
def accFirst (c : Dev nD) (t : Fin cfg0.N) (h0 : t.val % 2 = 0) : Vec F S1024x1024 .f32 :=
  VS0_0.read (Elt F) (VS0_0.writes (Elt F) VS0_0.junk (firstAt m c t h0).2.1)

/-- The store of an odd point into the result window covers its whole block. -/
theorem outCoverLast (c : Dev nD) (t : Fin cfg0.N) (h0 : ¬t.val % 2 = 0) (xs : Vec F S1024x1024 .f32) (y : S1024x1024.Idx) :
    ∃ pc ∈ (lastAt m c t h0 xs).1, y ∈ pc.1.set :=
  View.cover_of_tiledL (lastAt m c t h0 xs).1 S1024x1024.size (by sl_kernel_rfl) y

/-- What an odd point leaves in the result window's buffer. -/
def outLast (c : Dev nD) (t : Fin cfg0.N) (h0 : ¬t.val % 2 = 0) (xs : Vec F S1024x1024 .f32) : Vec F S1024x1024 .f32 :=
  VO0_3.read (Elt F) (VO0_3.writes (Elt F) VO0_3.junk (lastAt m c t h0 xs).1)

/-- The store of an odd point into the accumulator covers it. -/
theorem accCoverLast (c : Dev nD) (t : Fin cfg0.N) (h0 : ¬t.val % 2 = 0) (xs : Vec F S1024x1024 .f32) (y : S1024x1024.Idx) :
    ∃ pc ∈ (lastAt m c t h0 xs).2.1, y ∈ pc.1.set :=
  View.cover_of_tiledL (lastAt m c t h0 xs).2.1 S1024x1024.size (by sl_kernel_rfl) y

/-- What an odd point leaves in the accumulator. -/
def accLast (c : Dev nD) (t : Fin cfg0.N) (h0 : ¬t.val % 2 = 0) (xs : Vec F S1024x1024 .f32) : Vec F S1024x1024 .f32 :=
  VS0_0.read (Elt F) (VS0_0.writes (Elt F) VS0_0.junk (lastAt m c t h0 xs).2.1)

/-! ## Point by point -/

/-- THE ACCUMULATION. After the body at position `n`: (the result window's buffer, the accumulator). An even position
    starts afresh from its blocks; an odd one continues from the accumulator the position before left. -/
def leftAt (c : Dev nD) : (n : ℕ) → n < cfg0.N → Vec F S1024x1024 .f32 × Vec F S1024x1024 .f32
  | 0, hn => (outFirst m c ⟨0, hn⟩ (Nat.zero_mod _), accFirst m c ⟨0, hn⟩ (Nat.zero_mod _))
  | n + 1, hn =>
    if h0 : (n + 1) % 2 = 0 then
      (outFirst m c ⟨n + 1, hn⟩ h0, accFirst m c ⟨n + 1, hn⟩ h0)
    else
      (outLast m c ⟨n + 1, hn⟩ h0 (leftAt c n (Nat.lt_of_succ_lt hn)).2, accLast m c ⟨n + 1, hn⟩ h0 (leftAt c n (Nat.lt_of_succ_lt hn)).2)

theorem leftAt_even (c : Dev nD) (t : Fin cfg0.N) (h0 : t.val % 2 = 0) :
    leftAt m c t.val t.isLt = (outFirst m c t h0, accFirst m c t h0) := by
  obtain ⟨n, hn⟩ := t
  cases n with
  | zero => exact rfl
  | succ n => exact (dif_pos h0).trans rfl

theorem leftAt_odd (c : Dev nD) (t : Fin cfg0.N) (h0 : ¬t.val % 2 = 0) :
    leftAt m c t.val t.isLt = (outLast m c t h0 (leftAt m c (t.val - 1) (Nat.lt_of_le_of_lt (Nat.sub_le _ _) t.isLt)).2, accLast m c t h0 (leftAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point the accumulator holds anything; afterwards it
    holds what the position before left; the generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((leftAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((leftAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((leftAt m c (n - 1) (by omega)).2)) ∗ (∃ r, prngReg c r)) := by
  cases n with
  | zero => exact absurd rfl hz
  | succ n => rfl

/-! ## The pipeline's proof data -/

/-- The arrays as the region finds them; after the body at point `t` each input's buffer at its block and the
    result window's at `leftAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (leftAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (leftAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' memrefs hold their blocks. At an even point the run for k = 0 applies, with the
    accumulator at whatever the invariant holds it at (anything before the first point, the previous odd point's
    contents later: either way forgotten, since the first store covers it), and the result window's buffer is handed
    back untouched; at an odd point the run for k = 1 applies with the accumulator at what the point before left. Either
    way the invariant takes the accumulator back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 2 = 0
  · rw [Dat.leavesExact_idle (dats m 0 c) 3 t (idleAt0_3_first t (first_of_even t h0) (notLast_of_even t h0)) (noFlush0_3_first t (first_of_even t h0) (notLast_of_even t h0))]
    rw [leftAt_even m c t h0]
    unfold accFirst; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((firstAt m c t h0).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (accCoverFirst m c t h0)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((firstAt m c t h0).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (accCoverFirst m c t h0)
        iexact Hg
      isplitl [Ho]; · iexact Ho
      isplitl [H0]; · iexact H0
      isplitl [H1]; · iexact H1
      isplitl [H2]; · iexact H2
      iexists _; iexact H3
  · rw [show (dats m 0 c).leavesExact 3 t = owns (c : Thread nD τ) (ms0_3 t) fullShare ((dats m 0 c).after 3 t) from by
      unfold Dat.leavesExact; rw [liveAt0_3_last t (notFirst_of_odd t h0) (last_of_odd t h0)], after0_3]
    rw [leftAt_odd m c t h0]
    unfold outLast accLast; (try dsimp only)
    have hz : t.val ≠ 0 := fun e => h0 (by rw [e])
    rw [PhiS_castSucc m c t, PhiS_pos m c _ _ hz]
    iintro ⟨⟨HS0, Hg⟩, Ho, ⟨%d0, H0⟩, ⟨%d1, H1⟩, ⟨%d2, H2⟩, ⟨%d3, H3⟩⟩
    iapply ((lastAt m c t h0 _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hg]
    · isplitl [HS0]
      · unfold owns; iexists _; isplitr
        swap; · iexact HS0
        ipureintro; exact View.read_writes_of_cover _ _ _ _ _ (accCoverLast m c t h0 _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (outCoverLast m c t h0 _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back at "anything". -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

/-! ## The run and the frame -/

-- the launch theorem's implicit arguments are found by unifying its conclusion with this one, which takes unfolding
-- plain definitions in a metavariable's type
set_option backward.isDefEq.respectTransparency.types false in
/-- Every weakly fair execution of @main terminates, and every final state has each array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.KernelIdeal.Accum

end
-- ==== Proof.KernelIdealPayloads.lean ====
/-
  What the kernel's stores leave, as values. At k = 0 the accumulator ends at `bias row broadcast down the rows, plus
  the product of the point's two blocks`; at k = 1 the result window's buffer ends at `what the accumulator held, plus
  the product of the point's two blocks`. Read at an entry (p, q) of the 1024 x 1024 block, over the extended reals:
  the broadcast is the bias row's entry q, and the product into a zero accumulator is the sum over the 2048 contracted
  positions l of (left block)[p, l] * (right block)[l, q].
-/
import proofs.«116595_j29205777613621_2_alg».proof.Proof.KernelIdealFrame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.AccValue

open Cert.KernelIdeal Cert.KernelIdeal.Gen Cert.KernelIdeal.Accum
open Idealize.ShloMosaic Idealize.ShloMosaic.TcCoe Idealize.ShloMosaic.Tactic Idealize.ShloMosaic.ValueIdx Idealize.SL.Sem
open Idealize.ShloMosaic.Pipeline (Dat)

theorem hz : (![0, 0] : Fin 2 → Nat) = fun _ => 0 := funext fun a => by fin_cases a <;> rfl

section Pieces

variable {F : FTy → Type} [FloatOps F]

/-- The two stores at k = 0 each cover the accumulator, on any memrefs. -/
theorem coverFirstG (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : isFirstK i) (hc1 : ¬isLastK i)
    (x0 : Vec F S1024x2048 .bf16) (x1 : Vec F S2048x1024 .bf16) (x2 : Vec F S1x1024 .f32) (y : S1024x1024.Idx) :
    ∃ pc ∈ (runFirst c i arg3 harg3 arg4 harg4 arg5 harg5 arg6 harg6 arg7 harg7 hc0 hc1 x0 x1 x2).2.1, y ∈ pc.1.set :=
  View.cover_of_tiledL _ S1024x1024.size (by sl_kernel_rfl) y

/-- AT k = 0 the accumulator ends at the second store's payload: the operand blocks' product added to what the first
    store (the broadcast bias) left, which the body read back whole. -/
theorem accFirstG (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : isFirstK i) (hc1 : ¬isLastK i)
    (x0 : Vec F S1024x2048 .bf16) (x1 : Vec F S2048x1024 .bf16) (x2 : Vec F S1x1024 .f32) :
    VS0_0.read (Elt F) (VS0_0.writes (Elt F) VS0_0.junk (runFirst c i arg3 harg3 arg4 harg4 arg5 harg5 arg6 harg6 arg7 harg7 hc0 hc1 x0 x1 x2).2.1)
      = k0_pay2 x0 x1 (k0_pay1 x2) := by
  rw [View.read_writes_eq_canon _ _ _ (coverFirstG c i arg3 harg3 arg4 harg4 arg5 harg5 arg6 harg6 arg7 harg7 hc0 hc1 x0 x1 x2)]
  unfold runFirst
  dsimp only
  sl_unfold_words
  rw [View.canon_cons_unit_zero (S := S1024x1024) hz, View.readCov_unit_zero (S := S1024x1024) _ hz]
  simp only [View.readAt_eq_ld, harg3.read_unread, harg4.read_unread, harg5.read_unread,
    View.ld_unit_zero (S := S1024x2048) hz, View.ld_unit_zero (S := S2048x1024) hz, View.ld_unit_zero (S := S1x1024) hz]

/-- The one store into the result window at k = 1 covers its block. -/
theorem coverLastG (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : isLastK i)
    (x0 : Vec F S1024x2048 .bf16) (x1 : Vec F S2048x1024 .bf16) (x2 : Vec F S1x1024 .f32) (xs : Vec F S1024x1024 .f32) (y : S1024x1024.Idx) :
    ∃ pc ∈ (runLast c i arg3 harg3 arg4 harg4 arg5 harg5 arg6 harg6 arg7 harg7 hc0 hc1 x0 x1 x2 xs).1, y ∈ pc.1.set :=
  View.cover_of_tiledL _ S1024x1024.size (by sl_kernel_rfl) y

/-- AT k = 1 the result window's buffer ends at the accumulator the body has just stored and read back whole: the
    operand blocks' product added to what the accumulator held. -/
theorem outLastG (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : isLastK i)
    (x0 : Vec F S1024x2048 .bf16) (x1 : Vec F S2048x1024 .bf16) (x2 : Vec F S1x1024 .f32) (xs : Vec F S1024x1024 .f32) :
    VO0_3.read (Elt F) (VO0_3.writes (Elt F) VO0_3.junk (runLast c i arg3 harg3 arg4 harg4 arg5 harg5 arg6 harg6 arg7 harg7 hc0 hc1 x0 x1 x2 xs).1)
      = k0_pay2 x0 x1 xs := by
  rw [View.read_writes_eq_canon _ _ _ (coverLastG c i arg3 harg3 arg4 harg4 arg5 harg5 arg6 harg6 arg7 harg7 hc0 hc1 x0 x1 x2 xs)]
  unfold runLast
  dsimp only
  sl_unfold_words
  rw [View.canon_unit_zero hz, View.readCov_unit_zero (S := S1024x1024) _ hz]
  simp only [View.readAt_eq_ld, harg3.read_unread, harg4.read_unread, harg7.read_unread,
    View.ld_unit_zero (S := S1024x2048) hz, View.ld_unit_zero (S := S2048x1024) hz, View.ld_unit_zero (S := S1024x1024) hz]

end Pieces

/-! ## The payloads at an entry, over the extended reals -/

/-- The seed: the bias row broadcast down the 1024 rows, at (p, q), is the row's entry q. -/
theorem seed_at (v : Vec Ideal S1x1024 .f32) (p q : Fin 1024) :
    k0_pay1 (F := Ideal) v (ix2 p q) = v (ix2 (0 : Fin 1) q) := by
  unfold k0_pay1
  simp only [shapeCast_self]
  exact broadcastTo_1b_ab_apply v _ p q

/-- One accumulation step at (p, q): the accumulator's entry plus the sum over the 2048 contracted positions of the
    products of the left block's row p and the right block's column q. -/
theorem step_at (v3 : Vec Ideal S1024x2048 .bf16) (v5 : Vec Ideal S2048x1024 .bf16) (v7 : Vec Ideal S1024x1024 .f32) (p q : Fin 1024) :
    k0_pay2 (F := Ideal) v3 v5 v7 (ix2 p q) = v7 (ix2 p q) + ∑ l : Fin 2048, v3 (ix2 p l) * v5 (ix2 l q) := by
  unfold k0_pay2
  simp only [shapeCast_self]
  show v7 (ix2 p q) + FloatOps.matmul dot_S1024x2048_S2048x1024_S1024x1024_1_0_0_1_n_n none v3 v5 (constant (F := Ideal) S1024x1024 .f32 0x00000000#32) (ix2 p q) = _
  rw [Ideal.matmul_constant_zero_apply, ← Equiv.sum_comp (ValueIdx.contrEquiv1 dot_S1024x2048_S2048x1024_S1024x1024_1_0_0_1_n_n 2048 rfl rfl).symm]
  refine congrArg (v7 (ix2 p q) + ·) (Finset.sum_congr rfl fun l _ => ?_)
  have hl := ValueIdx.contrEquiv1_symm_val dot_S1024x2048_S2048x1024_S1024x1024_1_0_0_1_n_n 2048 rfl rfl l
  have el : dot_S1024x2048_S2048x1024_S1024x1024_1_0_0_1_n_n.lhsIdx (ix2 p q) ((ValueIdx.contrEquiv1 dot_S1024x2048_S2048x1024_S1024x1024_1_0_0_1_n_n 2048 rfl rfl).symm l) = ix2 p l := funext fun a => Fin.ext (by
    match a with
    | ⟨0, _⟩ =>
      show (dot_S1024x2048_S2048x1024_S1024x1024_1_0_0_1_n_n.lhsIdx (ix2 p q) _ 0).val = p.val
      unfold DotDims.lhsIdx
      rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
      rfl
    | ⟨1, _⟩ => exact (dot_S1024x2048_S2048x1024_S1024x1024_1_0_0_1_n_n.lhsIdx_val_of_single rfl (ix2 p q) _).trans hl)
  have er : dot_S1024x2048_S2048x1024_S1024x1024_1_0_0_1_n_n.rhsIdx (ix2 p q) ((ValueIdx.contrEquiv1 dot_S1024x2048_S2048x1024_S1024x1024_1_0_0_1_n_n 2048 rfl rfl).symm l) = ix2 l q := funext fun a => Fin.ext (by
    match a with
    | ⟨0, _⟩ => exact (dot_S1024x2048_S2048x1024_S1024x1024_1_0_0_1_n_n.rhsIdx_val_of_single rfl (ix2 p q) _).trans hl
    | ⟨1, _⟩ =>
      show (dot_S1024x2048_S2048x1024_S1024x1024_1_0_0_1_n_n.rhsIdx (ix2 p q) _ 1).val = q.val
      unfold DotDims.rhsIdx
      rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
      rfl)
  rw [el, er]

end Cert.KernelIdeal.AccValue

end
-- ==== Proof.BlockedSum.lean ====
/-
  The algebraic law that joins the two arrangements of one affine map over the extended reals.

  Both arrangements compute, for a row `p` of `x` and a column `q` of `W`, the number
  `(x · W)[p, q] + b[q]` with 4096 contracted indices.  One arrangement contracts all 4096 indices at
  once and adds the bias last; the other starts from the bias and adds the contraction in two halves
  of 2048 indices each.  Over the extended reals addition is commutative and associative with no
  side condition (infinite terms included), so the two arrangements agree for every input.
-/
import Mathlib.Algebra.BigOperators.Fin
import Idealize.ShloMosaic.PureOps.Ideal
import Idealize.ShloMosaic.Lib.ValueIdx

noncomputable section

open scoped BigOperators

namespace Cert.BlockedSum

open Idealize.ShloMosaic Idealize.ShloMosaic.ValueIdx

/-- The `l`-th contracted index of the lower half: `l` itself, read among all 4096 indices. -/
def lo (l : Fin 2048) : Fin 4096 := ⟨l.val, by have := l.isLt; omega⟩

/-- The `l`-th contracted index of the upper half: `2048 + l`, read among all 4096 indices. -/
def hi (l : Fin 2048) : Fin 4096 := ⟨2048 + l.val, by have := l.isLt; omega⟩

@[simp] theorem lo_val (l : Fin 2048) : (lo l).val = l.val := rfl

@[simp] theorem hi_val (l : Fin 2048) : (hi l).val = 2048 + l.val := rfl

/-- A sum over the 4096 indices is the sum over the lower 2048 of them plus the sum over the upper
    2048 of them.  This holds in every commutative additive monoid: the index set `{0, …, 4095}` is
    the disjoint union of `{0, …, 2047}` and `{2048, …, 4095}`, and the second is the first shifted
    by 2048. -/
theorem sum_eq_sum_lo_add_sum_hi {M : Type*} [AddCommMonoid M] (f : Fin 4096 → M) :
    ∑ k : Fin 4096, f k = ∑ l : Fin 2048, f (lo l) + ∑ l : Fin 2048, f (hi l) :=
  Fin.sum_univ_add (a := 2048) (b := 2048) f

/-- One contraction over all 4096 indices, then the bias:
    `(∑_{k < 4096} x[p, k] · W[k, q]) + b[q]`. -/
def wholeThenBias (x : (⟨2, ![8192, 4096]⟩ : Shape).Idx → EReal)
    (W : (⟨2, ![4096, 4096]⟩ : Shape).Idx → EReal) (b : (⟨1, ![4096]⟩ : Shape).Idx → EReal)
    (p : Fin 8192) (q : Fin 4096) : EReal :=
  (∑ k : Fin 4096, x (ix2 p k) * W (ix2 k q)) + b (ix1 q)

/-- The bias first, then the contraction in two halves:
    `(b[q] + ∑_{l < 2048} x[p, l] · W[l, q]) + ∑_{l < 2048} x[p, 2048 + l] · W[2048 + l, q]`. -/
def biasThenHalves (x : (⟨2, ![8192, 4096]⟩ : Shape).Idx → EReal)
    (W : (⟨2, ![4096, 4096]⟩ : Shape).Idx → EReal) (b : (⟨1, ![4096]⟩ : Shape).Idx → EReal)
    (p : Fin 8192) (q : Fin 4096) : EReal :=
  (b (ix1 q) + ∑ l : Fin 2048, x (ix2 p (lo l)) * W (ix2 (lo l) q))
    + ∑ l : Fin 2048, x (ix2 p (hi l)) * W (ix2 (hi l) q)

/-- The two arrangements are the same number.  Write `A` and `B` for the two half contractions and
    `c` for the bias entry: the whole contraction is `A + B`, and `(A + B) + c = c + (A + B) =
    (c + A) + B` by commutativity and associativity of addition on the extended reals.  Nothing is
    assumed finite. -/
theorem wholeThenBias_eq_biasThenHalves (x : (⟨2, ![8192, 4096]⟩ : Shape).Idx → EReal)
    (W : (⟨2, ![4096, 4096]⟩ : Shape).Idx → EReal) (b : (⟨1, ![4096]⟩ : Shape).Idx → EReal)
    (p : Fin 8192) (q : Fin 4096) :
    wholeThenBias x W b p q = biasThenHalves x W b p q := by
  unfold wholeThenBias biasThenHalves
  rw [sum_eq_sum_lo_add_sum_hi (fun k : Fin 4096 => x (ix2 p k) * W (ix2 k q)), add_comm, add_assoc]

end Cert.BlockedSum

end
-- ==== Proof.KernelIdealArray.lean ====
/-
  From blocks to the array. The result array [8192, 4096] is tiled by the 8 x 4 result blocks; block (i, j) is written
  back once, after the odd point 8 i + 2 j + 1, from the window's buffer. What that buffer then holds at (p, q) is, by
  the two accumulation steps and the seed,
      (bias[j 1024 + q] + sum over l < 2048 of x[i 1024 + p, l] * W[l, j 1024 + q])
        + sum over l < 2048 of x[i 1024 + p, 2048 + l] * W[2048 + l, j 1024 + q],
  because at point (i, j, k) the left window holds rows i 1024 .. of columns k 2048 .. of the left operand, the right
  window rows k 2048 .. of columns j 1024 .. of the right operand, and the bias window columns j 1024 .. of the bias
  row. So the whole array ends at that one function of the three operand arrays.
-/
import proofs.«116595_j29205777613621_2_alg».proof.Proof.KernelIdealPayloads
import proofs.«116595_j29205777613621_2_alg».proof.Proof.BlockedSum

set_option maxRecDepth 16384

noncomputable section

namespace Cert.KernelIdeal.AccValue

open Cert.KernelIdeal Cert.KernelIdeal.Gen Cert.KernelIdeal.Accum
open Idealize.ShloMosaic Idealize.ShloMosaic.TcCoe Idealize.ShloMosaic.Tactic Idealize.ShloMosaic.ValueIdx Idealize.SL.Sem
open Idealize.ShloMosaic.Pipeline (Dat)
open Cert.BlockedSum (lo hi lo_val hi_val biasThenHalves)

variable (m : (ℓ : Loc nD τ sig) → Buf (Elt Ideal) ℓ) (ρ : Dev nD → PrngReg)

/-! ## The two points of one (i, j) -/

/-- The point before `t`. -/
def prev (t : Fin cfg0.N) : Fin cfg0.N := ⟨t.val - 1, Nat.lt_of_le_of_lt (Nat.sub_le _ _) t.isLt⟩

theorem accFirst_eq (c : Dev nD) (t : Fin cfg0.N) (h0 : t.val % 2 = 0) :
    accFirst m c t h0 = k0_pay2 (iblk m c 0 t) (iblk m c 1 t) (k0_pay1 (iblk m c 2 t)) :=
  accFirstG c (grid0.coords t) (ms0_0 t) (hs0_0 t) (ms0_1 t) (hs0_1 t) (ms0_2 t) (hs0_2 t) (ms0_3 t) (hs0_3 t) scM0_0 (Memref.isWhole_whole _) (first_of_even t h0) (notLast_of_even t h0) (iblk m c 0 t) (iblk m c 1 t) (iblk m c 2 t)

theorem outLast_eq (c : Dev nD) (t : Fin cfg0.N) (h0 : ¬t.val % 2 = 0) (xs : Vec Ideal S1024x1024 .f32) :
    outLast m c t h0 xs = k0_pay2 (iblk m c 0 t) (iblk m c 1 t) xs :=
  outLastG c (grid0.coords t) (ms0_0 t) (hs0_0 t) (ms0_1 t) (hs0_1 t) (ms0_2 t) (hs0_2 t) (ms0_3 t) (hs0_3 t) scM0_0 (Memref.isWhole_whole _) (notFirst_of_odd t h0) (last_of_odd t h0) (iblk m c 0 t) (iblk m c 1 t) (iblk m c 2 t) xs

/-- After an odd point the result window's buffer holds two accumulation steps over the seed: this point's blocks
    over the point before's. -/
theorem left_odd (c : Dev nD) (t : Fin cfg0.N) (h0 : ¬t.val % 2 = 0) :
    (leftAt m c t.val t.isLt).1
      = k0_pay2 (iblk m c 0 t) (iblk m c 1 t) (k0_pay2 (iblk m c 0 (prev t)) (iblk m c 1 (prev t)) (k0_pay1 (iblk m c 2 (prev t)))) := by
  have he : (prev t).val % 2 = 0 := by show (t.val - 1) % 2 = 0; omega
  have hE : leftAt m c (t.val - 1) (Nat.lt_of_le_of_lt (Nat.sub_le _ _) t.isLt)
      = (outFirst m c (prev t) he, accFirst m c (prev t) he) := leftAt_even m c (prev t) he
  rw [leftAt_odd m c t h0, hE]
  dsimp only
  rw [accFirst_eq m c (prev t) he]
  exact outLast_eq m c t h0 _

/-! ## Which block of its array each window holds at a point -/

/-- Point `t` is (i, j, k) = (t / 8, t / 2 mod 4, t mod 2); the four index maps, decided over the 64 points. -/
theorem idx_facts : ∀ t : Fin cfg0.N,
    win0_0.index t (0 : Fin 2) = t.val / 8 ∧ win0_0.index t (1 : Fin 2) = t.val % 2
    ∧ win0_1.index t (0 : Fin 2) = t.val % 2 ∧ win0_1.index t (1 : Fin 2) = t.val / 2 % 4
    ∧ win0_2.index t (0 : Fin 2) = 0 ∧ win0_2.index t (1 : Fin 2) = t.val / 2 % 4
    ∧ win0_3.index t (0 : Fin 2) = t.val / 8 ∧ win0_3.index t (1 : Fin 2) = t.val / 2 % 4 :=
  (by decide +kernel : ∀ t : Fin grid0.N, _)

/-- The operand arrays as the region finds them. -/
abbrev opL (c : Dev nD) : S8192x4096.Idx → EReal := V (F := Ideal) m c main_v17
abbrev opR (c : Dev nD) : S4096x4096.Idx → EReal := V (F := Ideal) m c main_v18
abbrev opB (c : Dev nD) : S1x4096.Idx → EReal := V (F := Ideal) m c main_v16
/-- The bias row as a vector. -/
def biasVec (c : Dev nD) : (⟨1, ![4096]⟩ : Shape).Idx → EReal := fun j => opB m c (ix2 (0 : Fin 1) (j 0))

/-- The left window's entry (p, l) at point `t` is the left operand's entry (i 1024 + p, k 2048 + l). -/
theorem left_blk_at (c : Dev nD) (t : Fin cfg0.N) (p : Fin 1024) (l : Fin 2048) (P : Fin 8192) (K : Fin 4096)
    (hP : P.val = t.val / 8 * 1024 + p.val) (hK : K.val = t.val % 2 * 2048 + l.val) :
    (iblk m c 0 t : Vec Ideal S1024x2048 .bf16) (ix2 p l) = opL m c (ix2 P K) := by
  obtain ⟨e0, e1, -⟩ := idx_facts t
  show opL m c (((cfg0.win 0).blk t).view.emb (ix2 p l)) = _
  refine congrArg (opL m c) (funext fun a => Fin.ext ?_)
  match a with
  | ⟨0, _⟩ => show win0_0.index t (0 : Fin 2) * 1024 + 1 * p.val = P.val; omega
  | ⟨1, _⟩ => show win0_0.index t (1 : Fin 2) * 2048 + 1 * l.val = K.val; omega

/-- The right window's entry (l, q) at point `t` is the right operand's entry (k 2048 + l, j 1024 + q). -/
theorem right_blk_at (c : Dev nD) (t : Fin cfg0.N) (l : Fin 2048) (q : Fin 1024) (K : Fin 4096) (Q : Fin 4096)
    (hK : K.val = t.val % 2 * 2048 + l.val) (hQ : Q.val = t.val / 2 % 4 * 1024 + q.val) :
    (iblk m c 1 t : Vec Ideal S2048x1024 .bf16) (ix2 l q) = opR m c (ix2 K Q) := by
  obtain ⟨-, -, e2, e3, -⟩ := idx_facts t
  show opR m c (((cfg0.win 1).blk t).view.emb (ix2 l q)) = _
  refine congrArg (opR m c) (funext fun a => Fin.ext ?_)
  match a with
  | ⟨0, _⟩ => show win0_1.index t (0 : Fin 2) * 2048 + 1 * l.val = K.val; omega
  | ⟨1, _⟩ => show win0_1.index t (1 : Fin 2) * 1024 + 1 * q.val = Q.val; omega

/-- The bias window's entry (0, q) at point `t` is the bias row's entry j 1024 + q. -/
theorem bias_blk_at (c : Dev nD) (t : Fin cfg0.N) (q : Fin 1024) (Q : Fin 4096) (hQ : Q.val = t.val / 2 % 4 * 1024 + q.val) :
    (iblk m c 2 t : Vec Ideal S1x1024 .f32) (ix2 (0 : Fin 1) q) = biasVec m c (ix1 Q) := by
  obtain ⟨-, -, -, -, e4, e5, -⟩ := idx_facts t
  show opB m c (((cfg0.win 2).blk t).view.emb (ix2 (0 : Fin 1) q)) = opB m c (ix2 (0 : Fin 1) Q)
  refine congrArg (opB m c) (funext fun a => Fin.ext ?_)
  match a with
  | ⟨0, _⟩ => show win0_2.index t (0 : Fin 2) * 1 + 1 * 0 = 0; omega
  | ⟨1, _⟩ => show win0_2.index t (1 : Fin 2) * 1024 + 1 * q.val = Q.val; omega

/-! ## The block a point writes back, entry by entry -/

/-- After the odd point `t` = (i, j, 1), entry (p, q) of the result window's buffer is the bias entry plus the two
    half contractions, at row i 1024 + p and column j 1024 + q of the operands. -/
theorem block_at (c : Dev nD) (t : Fin cfg0.N) (h1 : t.val % 2 = 1) (p q : Fin 1024) (P : Fin 8192) (Q : Fin 4096)
    (hP : P.val = t.val / 8 * 1024 + p.val) (hQ : Q.val = t.val / 2 % 4 * 1024 + q.val) :
    k0_pay2 (F := Ideal) (iblk m c 0 t) (iblk m c 1 t) (k0_pay2 (iblk m c 0 (prev t)) (iblk m c 1 (prev t)) (k0_pay1 (iblk m c 2 (prev t)))) (ix2 p q)
      = biasThenHalves (opL m c) (opR m c) (biasVec m c) P Q := by
  have hN : t.val < 64 := lt_of_lt_of_eq t.isLt (show cfg0.N = 64 from N_0)
  have hv : (prev t).val = t.val - 1 := rfl
  rw [step_at (iblk m c 0 t) (iblk m c 1 t) _ p q,
    step_at (iblk m c 0 (prev t)) (iblk m c 1 (prev t)) _ p q,
    seed_at (iblk m c 2 (prev t)) p q]
  unfold biasThenHalves
  refine congrArg₂ (· + ·) (congrArg₂ (· + ·) ?_ ?_) ?_
  · exact bias_blk_at m c (prev t) q Q (by rw [hv]; omega)
  · refine Finset.sum_congr rfl fun l _ => ?_
    rw [left_blk_at m c (prev t) p l P (lo l) (by rw [hv]; omega) (by rw [hv, lo_val]; omega),
      right_blk_at m c (prev t) l q (lo l) Q (by rw [hv, lo_val]; omega) (by rw [hv]; omega)]
  · refine Finset.sum_congr rfl fun l _ => ?_
    rw [left_blk_at m c t p l P (hi l) hP (by rw [hi_val]; omega),
      right_blk_at m c t l q (hi l) Q (by rw [hi_val]; omega) hQ]

/-! ## The array -/

/-- THE RESULT: at (r, s) the bias entry s plus the two half contractions of row r of the left operand with column s of
    the right operand. -/
def result (c : Dev nD) : Buf (Elt Ideal) ((c : Thread nD τ).loc main_v19) :=
  fun i => biasThenHalves (opL m c) (opR m c) (biasVec m c) ⟨(i 0).val, (i 0).isLt⟩ ⟨(i 1).val, (i 1).isLt⟩

/-- What a write-back writes is the corresponding block of `result`. -/
theorem flushed_eq (c : Dev nD) (t : Fin cfg0.N) (hf : (cfg0.win 3).flush t = true) :
    (dats m 0 c).flushed 3 t = ((cfg0.win 3).blk t).view.read (Elt Ideal) (result m c) := by
  have h1 : t.val % 2 = 1 := (flush0_3 t).mp hf
  have hN : t.val < 64 := lt_of_lt_of_eq t.isLt (show cfg0.N = 64 from N_0)
  obtain ⟨-, -, -, -, -, -, e6, e7⟩ := idx_facts t
  show (cfg0.win 3).cut (grid0.coords t) ((dats m 0 c).after 3 t) = _
  rw [after0_3, left_odd m c t (by omega)]
  funext j
  show k0_pay2 (F := Ideal) (iblk m c 0 t) (iblk m c 1 t) (k0_pay2 (iblk m c 0 (prev t)) (iblk m c 1 (prev t)) (k0_pay1 (iblk m c 2 (prev t)))) j
    = result m c (((cfg0.win 3).blk t).view.emb j)
  have hj0 : (j 0).val < 1024 := (j 0).isLt
  have hj1 : (j 1).val < 1024 := (j 1).isLt
  refine (congrArg _ (eq_ix2 j)).trans ?_
  exact block_at m c t h1 (j 0) (j 1) _ _
    (show win0_3.index t (0 : Fin 2) * 1024 + 1 * (j 0).val = t.val / 8 * 1024 + (j 0).val by omega)
    (show win0_3.index t (1 : Fin 2) * 1024 + 1 * (j 1).val = t.val / 2 % 4 * 1024 + (j 1).val by omega)

/-- An index of the array is in point `t`'s block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v19).slice (win0_3.rect t)).set ↔ _
  rw [View.set_slice_whole, Rect.mem_set_unit]
  exact Iff.rfl

/-- Every entry (r, s) of the array is in the block written back after point 8 (r / 1024) + 2 (s / 1024) + 1. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 64 := N_0
  let t : Fin cfg0.N := ⟨(i 0).val / 1024 * 8 + (i 1).val / 1024 * 2 + 1, by rw [hN]; omega⟩
  have htv : t.val = (i 0).val / 1024 * 8 + (i 1).val / 1024 * 2 + 1 := rfl
  obtain ⟨-, -, -, -, -, -, e6, e7⟩ := idx_facts t
  refine ⟨t, (flush0_3 t).mpr (by rw [htv]; omega), ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- So the result array ends holding `result`. -/
theorem final (c : Dev nD) : (dats m 0 c).arrAt 3 cfg0.N = result m c :=
  (dats m 0 c).arrAt_eq_of_cover 3 (result m c) (flushed_eq m c) cover

/-- The run, read: the result array at `result`, the six arguments unchanged. -/
theorem run : θ_run defs (onTc (τ := τ) (main (F := Ideal))) ⟨m, fun _ => 0, ρ⟩ fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.AccValue

end
-- ==== Proof.KernelIdealOperands.lean ====
/-
  What the region finds in the three operand arrays, over the extended reals, in the reference's own terms.
  The nineteen host operations before the region build, from the four weight arrays, the 4096 x 4096 block matrix of
  the Hamilton product (rows of blocks: (Wr, Wi, Wj, Wk), (-Wi, Wr, -Wk, Wj), (-Wj, Wk, Wr, -Wi), (-Wk, -Wj, Wi, Wr),
  each block transposed), and from the bias the four-fold repetition reshaped to one row; then they change the
  format of the input and of the block matrix, which over the extended reals changes nothing. The reference builds
  the same block matrix and the same repetition by the same operations in the same order, so the operand arrays are
  the reference's stages for them, applied to the same arguments.
-/
import proofs.«116595_j29205777613621_2_alg».proof.Proof.KernelIdealEntry
import proofs.«116595_j29205777613621_2_alg».proof.Proof.Gen.ReferenceIdeal.Read
import Idealize.ShloMosaic.Lib.StableHlo.Run
import Idealize.ShloMosaic.Lib.ValueLayout

noncomputable section

namespace Cert.KernelIdeal.AccValue

open Cert.KernelIdeal Cert.KernelIdeal.Gen Cert.KernelIdeal.Accum
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The left operand is the input array itself. -/
theorem left_eq (c : Dev nD) :
    (V (F := Ideal) m c main_v17 : S8192x4096.Idx → EReal) = m ((c : Thread nD τ).loc main_arg0) := by
  dsimp only [V, hostOps0]; after_results; rfl

set_option maxHeartbeats 2000000 in
/-- The right operand is the reference's block matrix of the four weight arrays. -/
theorem right_eq (c : Dev nD) :
    (V (F := Ideal) m c main_v18 : S4096x4096.Idx → EReal)
      = Cert.ReferenceIdeal.Read.val_main_v14 (F := Ideal) (m ((c : Thread nD τ).loc main_arg1)) (m ((c : Thread nD τ).loc main_arg2))
          (m ((c : Thread nD τ).loc main_arg3)) (m ((c : Thread nD τ).loc main_arg4)) := by
  dsimp only [V, hostOps0]; after_results; rfl

set_option maxHeartbeats 2000000 in
/-- The bias row is the reference's four-fold repetition of the bias, laid out as one row. -/
theorem bias_eq (c : Dev nD) :
    (V (F := Ideal) m c main_v16 : S1x4096.Idx → EReal)
      = shapeCast S1x4096 (Cert.ReferenceIdeal.Read.val_main_v15 (F := Ideal) (m ((c : Thread nD τ).loc main_arg5))) shapeCasts_S4096_S1x4096 := by
  dsimp only [V, hostOps0]; after_results; rfl

/-- So entry (0, q) of the bias row is entry q of the repetition. -/
theorem bias_at (c : Dev nD) (q : Fin 4096) :
    (V (F := Ideal) m c main_v16 : S1x4096.Idx → EReal) (ix2 (0 : Fin 1) q)
      = Cert.ReferenceIdeal.Read.val_main_v15 (F := Ideal) (m ((c : Thread nD τ).loc main_arg5)) (ix1 q) := by
  rw [bias_eq]
  exact shapeCast_a_1a_apply _ _ (0 : Fin 1) q

end Cert.KernelIdeal.AccValue

end
-- ==== Proof.RefSide.lean ====
/-
  The reference program's result, read entry by entry.

  The reference's last four operations are: one contraction of `x` (8192 × 4096) with the assembled
  weight matrix (4096 × 4096) over all 4096 inner indices, two broadcasts that turn the assembled
  bias vector (4096 entries) into an 8192 × 4096 array constant along the rows, and an entrywise
  addition.  So the entry `(p, q)` of the result is
  `(∑_{k < 4096} x[p, k] · W[k, q]) + b[q]`, where `W` and `b` are the assembled weight matrix and
  bias vector.  Those two are left as the stages that assemble them: how they are assembled plays
  no part here.
-/
import proofs.«116595_j29205777613621_2_alg».proof.Proof.Gen.ReferenceIdeal.Read
import proofs.«116595_j29205777613621_2_alg».proof.Proof.BlockedSum

noncomputable section

open scoped BigOperators

namespace Cert.ReferenceIdeal.RefValue

open Cert.ReferenceIdeal Idealize.ShloMosaic Idealize.ShloMosaic.ValueIdx

/-- The left operand of the contraction, for the entry `(p, q)` and the inner index `k`, is read at
    `(p, k)`. -/
theorem lidx_eq (p : Fin 8192) (q k : Fin 4096) : Read.lidx_main_v16 (ix2 p q) k = ix2 p k :=
  funext fun a => Fin.ext (by match a with | ⟨0, _⟩ => rfl | ⟨1, _⟩ => rfl)

/-- The right operand of the contraction, for the entry `(p, q)` and the inner index `k`, is read at
    `(k, q)`. -/
theorem ridx_eq (p : Fin 8192) (q k : Fin 4096) : Read.ridx_main_v16 (ix2 p q) k = ix2 k q :=
  funext fun a => Fin.ext (by match a with | ⟨0, _⟩ => rfl | ⟨1, _⟩ => rfl)

/-- Through the two broadcasts, the entry `(p, q)` of the bias array is the entry `q` of the bias
    vector: the row coordinate is dropped. -/
theorem bias_idx_eq (p : Fin 8192) (q : Fin 4096) :
    Read.idx_main_v17 (Read.idx_main_v18 (ix2 p q)) = ix1 q :=
  funext fun a => Fin.ext (by match a with | ⟨0, _⟩ => rfl)

/-- The entry `(p, q)` of the reference's result is the whole contraction of row `p` of `x` with
    column `q` of the assembled weight matrix, plus the entry `q` of the assembled bias vector. -/
theorem val_main_v19_ix2
    (x0 : (⟨S8192x4096, .f32⟩ : BufTy).Contents (Elt Ideal))
    (x1 x2 x3 x4 : (⟨S1024x1024, .f32⟩ : BufTy).Contents (Elt Ideal))
    (x5 : (⟨S1024, .f32⟩ : BufTy).Contents (Elt Ideal))
    (p : Fin 8192) (q : Fin 4096) :
    Read.val_main_v19 (F := Ideal) x0 x1 x2 x3 x4 x5 (ix2 p q)
      = Cert.BlockedSum.wholeThenBias x0 (Read.val_main_v14 (F := Ideal) x1 x2 x3 x4)
          (Read.val_main_v15 (F := Ideal) x5) p q := by
  rw [Read.val_main_v19_apply, Read.val_main_v16_apply, Read.val_main_v18_apply,
    Read.val_main_v17_apply]
  simp only [lidx_eq, ridx_eq, bias_idx_eq, Ideal.addf_def]
  rfl

end Cert.ReferenceIdeal.RefValue

end
-- ==== Proof.lean ====
/-
  The certificate of a quaternion dense layer (the Hamilton product as one 4096 x 4096 block matrix) computed by a
  blocked matrix product, against `x @ W + b`.

  Both programs build the block matrix W of the four weight arrays and the four-fold repetition of the bias by the
  same host operations. The reference contracts all 4096 positions at once and then adds the bias:
      y[r, s] = (sum over k < 4096 of x[r, k] * W[k, s]) + b[s].
  The kernel walks a grid 8 x 4 x 2; for a result block (i, j) it seeds a 1024 x 1024 accumulator with the bias at
  k = 0, adds the product of the k-th 2048-wide slab of x's rows with the k-th 2048-tall slab of W's columns at each k,
  and stores the accumulator to the result block at k = 1:
      y[r, s] = (b[s] + sum over l < 2048 of x[r, l] * W[l, s]) + sum over l < 2048 of x[r, 2048 + l] * W[2048 + l, s].
  Over the extended reals the change of format of x and W before the call is the identity, and the two right sides
  are equal because a sum over 4096 positions is the sum of its two halves and addition of extended reals is
  commutative and associative; no finiteness of the inputs is used.

  The frames of the two kernel programs are proved at any float instance (Proof/KernelFrame.lean,
  Proof/KernelIdealFrame.lean and the modules they import): the body is run once per value of k, the accumulator's
  contents are carried from k = 0 to k = 1 by the region's invariant, and none of the host operations before the
  region writes an argument array. The reference's frame is its run with the result dropped. The idealization rewrote
  nothing, so there is nothing to preserve.
-/
import proofs.«116595_j29205777613621_2_alg».proof.Defs
import proofs.«116595_j29205777613621_2_alg».proof.Proof.Gen.Kernel
import proofs.«116595_j29205777613621_2_alg».proof.Proof.Gen.KernelIdeal
import proofs.«116595_j29205777613621_2_alg».proof.Proof.Gen.ReferenceIdeal
import proofs.«116595_j29205777613621_2_alg».proof.Proof.Gen.ReferenceIdeal.Run
import proofs.«116595_j29205777613621_2_alg».proof.Proof.Gen.ReferenceIdeal.Read
import proofs.«116595_j29205777613621_2_alg».proof.Proof.Gen.Pre_finite_inputs
import proofs.«116595_j29205777613621_2_alg».proof.Proof.KernelFrame
import proofs.«116595_j29205777613621_2_alg».proof.Proof.KernelIdealArray
import proofs.«116595_j29205777613621_2_alg».proof.Proof.KernelIdealOperands
import proofs.«116595_j29205777613621_2_alg».proof.Proof.RefSide
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Accum.frame m ρ

theorem frame_ki : Cert.frame_KernelIdeal := fun m ρ _ => Cert.KernelIdeal.Accum.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result, a function of the operand arrays as the region finds them, is the reference's result, a
    function of the argument arrays, when the two memories agree on the arguments: the operand arrays are the
    reference's own input, block matrix and repeated bias, and the two arrangements of the sum agree entry by entry. -/
theorem result_eq (m : (ℓ : Loc Cert.KernelIdeal.nD Cert.KernelIdeal.τ Cert.KernelIdeal.sig) → Buf (Elt Ideal) ℓ) (c : Dev Cert.KernelIdeal.nD) :
    Cert.ReferenceIdeal.Read.val_main_v19 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.AccValue.result m c := by
  funext i
  have hb : Cert.KernelIdeal.AccValue.biasVec m c
      = Cert.ReferenceIdeal.Read.val_main_v15 (F := Ideal) (m ((c.tc : Thread Cert.KernelIdeal.nD Cert.KernelIdeal.τ).loc Cert.KernelIdeal.main_arg5)) := by
    funext j
    rw [eq_ix1 j]
    exact Cert.KernelIdeal.AccValue.bias_at m c (j 0)
  unfold Cert.KernelIdeal.AccValue.result
  rw [hb]
  show _ = Cert.BlockedSum.biasThenHalves (Cert.KernelIdeal.Accum.V (F := Ideal) m c Cert.KernelIdeal.main_v17)
    (Cert.KernelIdeal.Accum.V (F := Ideal) m c Cert.KernelIdeal.main_v18) _ _ _
  rw [Cert.KernelIdeal.AccValue.left_eq m c, Cert.KernelIdeal.AccValue.right_eq m c,
    ← Cert.BlockedSum.wholeThenBias_eq_biasThenHalves]
  refine (congrArg _ (eq_ix2 i)).trans ?_
  exact Cert.ReferenceIdeal.RefValue.val_main_v19_ix2 _ _ _ _ _ _ (i 0) (i 1)

theorem algebraic : Cert.algebraic_KernelIdeal_ReferenceIdeal := by
  intro m ρ m' ρ' _ hagree
  refine ⟨fun c => Cert.KernelIdeal.AccValue.result m c, Cert.KernelIdeal.AccValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2.1,
    (hagree c).2.2.2.2.1, (hagree c).2.2.2.2.2]
  exact result_eq m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
